-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x3 : Shape := ⟨2, ![800000, 3]⟩
abbrev S800000 : Shape := ⟨1, ![800000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S32x64 .f32) (main_arg7 : FVec F S64 .f32) (main_arg8 : FVec F S64x64 .f32) (main_arg9 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x64 .f32 := Host.absf main_arg6
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_v33

def fn {F : FTy → Type} [FloatOps F] (main_arg0 : FVec F S50000x64 .f32) (main_arg1 : FVec F S800000x3 .f32) (main_arg2 : IVec S800000 32) (main_arg3 : IVec S800000 32) (main_arg4 : FVec F S3x32 .f32) (main_arg5 : FVec F S32 .f32) (main_arg6 : FVec F S32x64 .f32) (main_arg7 : FVec F S64 .f32) (main_arg8 : FVec F S64x64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x3 .f32 := Host.absf main_arg1
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S3x32 .f32 := Host.absf main_arg4
  let main_cst_2 : FVec F S_ .f32 := constant S_ .f32 0x7F800000#32
  let main_v10 : FVec F S3x32 .f32 := broadcastInDim S3x32 ![] bcast_S_S3x32 main_cst_2
  let main_v11 : IVec S3x32 1 := cmpf .olt main_v9 main_v10
  let main_c_3 : IVec S_ 1 := constantI S_ 1 1#1
  let main_v12 : IVec S_ 1 := (fun x v => Host.reduce IntOp.andi x v reducesTo_S3x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_v13 main_v16
-- ==== Kernel.lean ====
abbrev S50000x64 : Shape := ⟨2, ![50000, 64]⟩
abbrev S800000x3 : Shape := ⟨2, ![800000, 3]⟩
abbrev S800000 : Shape := ⟨1, ![800000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S1x32 : Shape := ⟨2, ![1, 32]⟩
abbrev S1x64 : Shape := ⟨2, ![1, 64]⟩
abbrev S8000x3 : Shape := ⟨2, ![8000, 3]⟩
abbrev S8000x64 : Shape := ⟨2, ![8000, 64]⟩
abbrev S8000x32 : Shape := ⟨2, ![8000, 32]⟩
abbrev S5000x64 : Shape := ⟨2, ![5000, 64]⟩

abbrev nBuf : Space → Nat
  | .hbm => 29
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S800000x3, .f32⟩
  | .hbm, ⟨2, _⟩ => ⟨S800000, .i32⟩
  | .hbm, ⟨3, _⟩ => ⟨S800000, .i32⟩
  | .hbm, ⟨4, _⟩ => ⟨S3x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S50000x64, .bf16⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .bf16⟩
  | .hbm, ⟨20, _⟩ => ⟨S1x32, .f32⟩
  | .hbm, ⟨21, _⟩ => ⟨S1x64, .f32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S1x64, .f32⟩
  | .hbm, ⟨28, _⟩ => ⟨S50000x64, .f32⟩
  | .local _ .vmem, ⟨0, _⟩ => ⟨S8000x3, .f32⟩
  | .local _ .vmem, ⟨1, _⟩ => ⟨S8000x3, .f32⟩
  | .local _ .vmem, ⟨2, _⟩ => ⟨S8000x64, .bf16⟩
  | .local _ .vmem, ⟨3, _⟩ => ⟨S8000x64, .bf16⟩
  | .local _ .vmem, ⟨4, _⟩ => ⟨S3x32, .f32⟩
  | .local _ .vmem, ⟨5, _⟩ => ⟨S1x32, .f32⟩
  | .local _ .vmem, ⟨6, _⟩ => ⟨S32x64, .f32⟩
  | .local _ .vmem, ⟨7, _⟩ => ⟨S1x64, .f32⟩
  | .local _ .vmem, ⟨8, _⟩ => ⟨S8000x64, .f32⟩
  | .local _ .vmem, ⟨9, _⟩ => ⟨S8000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  shapeCasts_S32_S1x32 : S32.ShapeCasts S1x32
  shapeCasts_S64_S1x64 : S64.ShapeCasts S1x64
  inb_S8000x3_S8000x3_0_0 : ∀ a, (![0, 0] : Fin 2 → Nat) a + S8000x3.size a ≤ S8000x3.size a
  h_S8000x3 : 0 < S8000x3.numel
  inb_S3x32_S3x32_0_0 : ∀ a, (![0, 0] : Fin 2 → Nat) a + S3x32.size a ≤ S3x32.size a
  h_S3x32 : 0 < S3x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S8000x3_S3x32_S8000x32_1_0_0_1_n_n_wf : DotDims.WF S8000x3 S3x32 S8000x32 [1] [0] [0] [1] [] []
  dot_S8000x32_S32x64_S8000x64_1_0_0_1_n_n_wf : DotDims.WF S8000x32 S32x64 S8000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S800000x3.size a
  hwx0_0 : ∀ i : grid0.Coords, EltTy.bits .f32 = 32 ∨ (Rect.block (s := S800000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32.size a ≤ S3x32.size a
  hwx0_2 : ∀ i : grid0.Coords, EltTy.bits .f32 = 32 ∨ (Rect.block (s := S3x32) S3x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S800000x64.size a
  hwx0_6 : ∀ i : grid0.Coords, EltTy.bits .f32 = 32 ∨ (Rect.block (s := S800000x64) S8000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x3_S3x32_S8000x32_1_0_0_1_n_n : DotDims S8000x3 S3x32 S8000x32 where
  lhsContracting := [1]
  rhsContracting := [0]
  lhsNonContracting := [0]
  rhsNonContracting := [1]
  lhsBatch := []
  rhsBatch := []
  wf := dot_S8000x3_S3x32_S8000x32_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg1) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S3x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x3 : Shape := ⟨2, ![800000, 3]⟩
abbrev S800000 : Shape := ⟨1, ![800000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S800000x32 : Shape := ⟨2, ![800000, 32]⟩
abbrev S1x32 : Shape := ⟨2, ![1, 32]⟩
abbrev S_ : Shape := ⟨0, ![]⟩
abbrev S800000x64 : Shape := ⟨2, ![800000, 64]⟩
abbrev S1x64 : Shape := ⟨2, ![1, 64]⟩
abbrev S800000x1 : Shape := ⟨2, ![800000, 1]⟩

abbrev nBuf : Space → Nat
  | .hbm => 39
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x3, .f32⟩
  | .hbm, ⟨2, _⟩ => ⟨S800000, .i32⟩
  | .hbm, ⟨3, _⟩ => ⟨S800000, .i32⟩
  | .hbm, ⟨4, _⟩ => ⟨S3x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S800000x32, .f32⟩
  | .hbm, ⟨11, _⟩ => ⟨S1x32, .f32⟩
  | .hbm, ⟨12, _⟩ => ⟨S800000x32, .f32⟩
  | .hbm, ⟨13, _⟩ => ⟨S800000x32, .f32⟩
  | .hbm, ⟨14, _⟩ => ⟨S_, .f32⟩
  | .hbm, ⟨15, _⟩ => ⟨S800000x32, .f32⟩
  | .hbm, ⟨16, _⟩ => ⟨S800000x32, .f32⟩
  | .hbm, ⟨17, _⟩ => ⟨S800000x64, .f32⟩
  | .hbm, ⟨18, _⟩ => ⟨S1x64, .f32⟩
  | .hbm, ⟨19, _⟩ => ⟨S800000x64, .f32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  dot_S800000x3_S3x32_S800000x32_1_0_0_1_n_n_wf : DotDims.WF S800000x3 S3x32 S800000x32 [1] [0] [0] [1] [] []
  dot_S800000x32_S32x64_S800000x64_1_0_0_1_n_n_wf : DotDims.WF S800000x32 S32x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def dot_S800000x3_S3x32_S800000x32_1_0_0_1_n_n : DotDims S800000x3 S3x32 S800000x32 where
  lhsContracting := [1]
  rhsContracting := [0]
  lhsNonContracting := [0]
  rhsNonContracting := [1]
  lhsBatch := []
  rhsBatch := []
  wf := dot_S800000x3_S3x32_S800000x32_1_0_0_1_n_n_wf
def dot_S800000x32_S32x64_S800000x64_1_0_0_1_n_n : DotDims S800000x32 S32x64 S800000x64 where
  lhsContracting := [1]
  rhsContracting := [0]
  lhsNonContracting := [0]
  rhsNonContracting := [1]
  lhsBatch := []
  rhsBatch := []
  wf := dot_S800000x32_S32x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The mathematics of one point-convolution layer on the extended reals.

  Every edge e carries a coordinate row r_e of three numbers.  A two-layer perceptron turns the row into 64 channel
  weights: the hidden unit j is max(sum_k r_e(k) * W1(k,j) + b1(j), 0), and the weight of channel c is
  sum_j hidden(j) * W2(j,c) + b2(c).  The message of edge e on channel c is the gathered source feature times that
  weight.  After the messages are summed into their destination rows (the sum itself is shared by the two programs and
  is not opened here), a node's output on channel c is sum_k agg(n,k) * Wout(k,c) + bout(c).

  The weight of an edge depends on the edge only through its own coordinate row, so it is stated as a function of that
  row: the same function then serves a block of 8000 edges and the whole array of 800000 edges.
-/
import Idealize.ShloMosaic.PureOps
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx
open scoped BigOperators

/-- Hidden unit `j` of the edge perceptron on the coordinate row `r`: the rectified affine form. The zero of the
    rectifier is kept as the float word both programs print. -/
def hidden (r : Fin 3 → EReal) (W1 : FVec Ideal ⟨2, ![3, 32]⟩ .f32) (b1 : Fin 32 → EReal) (j : Fin 32) : EReal :=
  max ((∑ k : Fin 3, r k * W1 (ix2 k j)) + b1 j) (Ideal.ofBits .f32 0x00000000#32)

/-- The weight the edge perceptron gives channel `c` on the coordinate row `r`. -/
def edgeWeight (r : Fin 3 → EReal) (W1 : FVec Ideal ⟨2, ![3, 32]⟩ .f32) (b1 : Fin 32 → EReal)
    (W2 : FVec Ideal ⟨2, ![32, 64]⟩ .f32) (b2 : Fin 64 → EReal) (c : Fin 64) : EReal :=
  (∑ j : Fin 32, hidden r W1 b1 j * W2 (ix2 j c)) + b2 c

/-- The messages of all 800000 edges: the gathered source features times the edges' channel weights. -/
def messages (xs : FVec Ideal ⟨2, ![800000, 64]⟩ .f32) (rp : FVec Ideal ⟨2, ![800000, 3]⟩ .f32)
    (W1 : FVec Ideal ⟨2, ![3, 32]⟩ .f32) (b1 : Fin 32 → EReal)
    (W2 : FVec Ideal ⟨2, ![32, 64]⟩ .f32) (b2 : Fin 64 → EReal) : FVec Ideal ⟨2, ![800000, 64]⟩ .f32 :=
  fun i => xs i * edgeWeight (fun k => rp (ix2 (⟨(i 0).val, (i 0).isLt⟩ : Fin 800000) k)) W1 b1 W2 b2
    (⟨(i 1).val, (i 1).isLt⟩ : Fin 64)

/-- The channel mix of the aggregated features: every node's row times `Wout`, plus the bias row. -/
def mixed (agg : FVec Ideal ⟨2, ![50000, 64]⟩ .f32) (Wout : FVec Ideal ⟨2, ![64, 64]⟩ .f32)
    (bout : Fin 64 → EReal) : FVec Ideal ⟨2, ![50000, 64]⟩ .f32 :=
  fun i => (∑ k : Fin 64, agg (ix2 (⟨(i 0).val, (i 0).isLt⟩ : Fin 50000) k) * Wout (ix2 k (⟨(i 1).val, (i 1).isLt⟩ : Fin 64)))
    + bout (⟨(i 1).val, (i 1).isLt⟩ : Fin 64)

/-- THE WHOLE LAYER as one function of the argument arrays. The source indices are normalised as jnp indexing does
    (a negative index counts from the end), the source rows are gathered, the messages are formed, the accumulating
    scatter sums them into their destination rows from zero, and the channel mix is applied. The gather's and the
    scatter's dimension numbers and the broadcasts' shape facts are parameters: the two programs state their own,
    with the same contents. -/
def layer (gd : GatherDims ⟨2, ![50000, 64]⟩ ⟨2, ![800000, 1]⟩ ⟨2, ![800000, 64]⟩)
    (sd : ScatterDims ⟨2, ![50000, 64]⟩ ⟨2, ![800000, 1]⟩ ⟨2, ![800000, 64]⟩)
    (hz : (⟨0, ![]⟩ : Shape).BroadcastsInDim ⟨2, ![50000, 64]⟩ (![] : Fin 0 → Fin 2))
    (hcol : (⟨1, ![800000]⟩ : Shape).BroadcastsInDim ⟨2, ![800000, 1]⟩ (![0] : Fin 1 → Fin 2))
    (hs : (⟨0, ![]⟩ : Shape).BroadcastsInDim ⟨1, ![800000]⟩ (![] : Fin 0 → Fin 1))
    (x : FVec Ideal ⟨2, ![50000, 64]⟩ .f32) (rp : FVec Ideal ⟨2, ![800000, 3]⟩ .f32)
    (src dst : IVec ⟨1, ![800000]⟩ 32)
    (W1 : FVec Ideal ⟨2, ![3, 32]⟩ .f32) (b1 : Fin 32 → EReal)
    (W2 : FVec Ideal ⟨2, ![32, 64]⟩ .f32) (b2 : Fin 64 → EReal)
    (Wout : FVec Ideal ⟨2, ![64, 64]⟩ .f32) (bout : Fin 64 → EReal) : FVec Ideal ⟨2, ![50000, 64]⟩ .f32 :=
  mixed
    (Host.scatterAdd (F := Ideal) sd
      (broadcastInDim ⟨2, ![50000, 64]⟩ ![] hz (constant (F := Ideal) ⟨0, ![]⟩ .f32 0x00000000#32))
      (broadcastInDim ⟨2, ![800000, 1]⟩ ![0] hcol dst)
      (messages
        (Host.gather gd x
          (broadcastInDim ⟨2, ![800000, 1]⟩ ![0] hcol
            (select (cmpi .slt src (broadcastInDim ⟨1, ![800000]⟩ ![] hs (constantI ⟨0, ![]⟩ 32 0#32)))
              (addi src (broadcastInDim ⟨1, ![800000]⟩ ![] hs (constantI ⟨0, ![]⟩ 32 50000#32))) src)))
        rp W1 b1 W2 b2))
    Wout bout

theorem messages_entry (xs : FVec Ideal ⟨2, ![800000, 64]⟩ .f32) (rp : FVec Ideal ⟨2, ![800000, 3]⟩ .f32)
    (W1 : FVec Ideal ⟨2, ![3, 32]⟩ .f32) (b1 : Fin 32 → EReal)
    (W2 : FVec Ideal ⟨2, ![32, 64]⟩ .f32) (b2 : Fin 64 → EReal) (e : Fin 800000) (c : Fin 64) :
    messages xs rp W1 b1 W2 b2 (ix2 e c)
      = xs (ix2 e c) * edgeWeight (fun k => rp (ix2 e k)) W1 b1 W2 b2 c := rfl

theorem mixed_entry (agg : FVec Ideal ⟨2, ![50000, 64]⟩ .f32) (Wout : FVec Ideal ⟨2, ![64, 64]⟩ .f32)
    (bout : Fin 64 → EReal) (n : Fin 50000) (c : Fin 64) :
    mixed agg Wout bout (ix2 n c) = (∑ k : Fin 64, agg (ix2 n k) * Wout (ix2 k c)) + bout c := rfl

end Cert.PointConv

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.Blocks.lean ====
/-
  What the two kernel bodies compute on one block, entry by entry.

  The first body takes a block of 8000 edges: their coordinate rows, their gathered source features, and the whole
  perceptron parameters (the biases as one row each).  Narrowing to bf16 and widening back change nothing on the
  extended reals, a product into a zero accumulator is the plain sum over the contracted axis, and a one-row bias
  broadcast over the block reads its one row.  So the entry (p, q) of what the body stores is the source feature at
  (p, q) times the edge weight of the block's coordinate row p on channel q.

  The second body takes a block of 5000 nodes' aggregated rows and stores, at (p, q), the row p times column q of
  the mixing matrix plus the bias at q.
-/
import proofs.«163828_j28501402976579_1_alg».proof.Proof.Gen.KernelIdeal.Skeleton
import proofs.«163828_j28501402976579_1_alg».proof.Proof.Spec
import proofs.«163828_j28501402976579_1_alg».proof.Proof.LibRowOps
import Idealize.ShloMosaic.Lib.ValueLayout

noncomputable section

namespace Cert.PointConv.Blocks

open Idealize.ShloMosaic Idealize.ShloMosaic.ValueIdx Cert.KernelIdeal Cert.KernelIdeal.Gen Cert.PointConv
open scoped BigOperators

/-! ## The three products' coordinates: which operand coordinate is the output's, which the contraction's -/

theorem dA_l0 (i : Cert.KernelIdeal.S8000x32.Idx) (q : Cert.KernelIdeal.dot_S8000x3_S3x32_S8000x32_1_0_0_1_n_n.contr.Idx) :
    (Cert.KernelIdeal.dot_S8000x3_S3x32_S8000x32_1_0_0_1_n_n.lhsIdx i q 0).val = (i 0).val := by
  unfold DotDims.lhsIdx
  rw [dif_neg (show ¬(0 : Fin Cert.KernelIdeal.S8000x3.rank) ∈ Cert.KernelIdeal.dot_S8000x3_S3x32_S8000x32_1_0_0_1_n_n.lhsBatch by decide), dif_pos (show (0 : Fin Cert.KernelIdeal.S8000x3.rank) ∈ Cert.KernelIdeal.dot_S8000x3_S3x32_S8000x32_1_0_0_1_n_n.lhsNonContracting by decide)]
  rfl
theorem dA_l1 (i : Cert.KernelIdeal.S8000x32.Idx) (q : Cert.KernelIdeal.dot_S8000x3_S3x32_S8000x32_1_0_0_1_n_n.contr.Idx) :
    (Cert.KernelIdeal.dot_S8000x3_S3x32_S8000x32_1_0_0_1_n_n.lhsIdx i q 1).val = (q ⟨0, by decide⟩).val :=
  Cert.KernelIdeal.dot_S8000x3_S3x32_S8000x32_1_0_0_1_n_n.lhsIdx_val_of_single rfl i q
theorem dA_r0 (i : Cert.KernelIdeal.S8000x32.Idx) (q : Cert.KernelIdeal.dot_S8000x3_S3x32_S8000x32_1_0_0_1_n_n.contr.Idx) :
    (Cert.KernelIdeal.dot_S8000x3_S3x32_S8000x32_1_0_0_1_n_n.rhsIdx i q 0).val = (q ⟨0, by decide⟩).val :=
  Cert.KernelIdeal.dot_S8000x3_S3x32_S8000x32_1_0_0_1_n_n.rhsIdx_val_of_single rfl i q
theorem dA_r1 (i : Cert.KernelIdeal.S8000x32.Idx) (q : Cert.KernelIdeal.dot_S8000x3_S3x32_S8000x32_1_0_0_1_n_n.contr.Idx) :
    (Cert.KernelIdeal.dot_S8000x3_S3x32_S8000x32_1_0_0_1_n_n.rhsIdx i q 1).val = (i 1).val := by
  unfold DotDims.rhsIdx
  rw [dif_neg (show ¬(1 : Fin Cert.KernelIdeal.S3x32.rank) ∈ Cert.KernelIdeal.dot_S8000x3_S3x32_S8000x32_1_0_0_1_n_n.rhsBatch by decide), dif_pos (show (1 : Fin Cert.KernelIdeal.S3x32.rank) ∈ Cert.KernelIdeal.dot_S8000x3_S3x32_S8000x32_1_0_0_1_n_n.rhsNonContracting by decide)]
  rfl

theorem dB_l0 (i : Cert.KernelIdeal.S8000x64.Idx) (q : Cert.KernelIdeal.dot_S8000x32_S32x64_S8000x64_1_0_0_1_n_n.contr.Idx) :
    (Cert.KernelIdeal.dot_S8000x32_S32x64_S8000x64_1_0_0_1_n_n.lhsIdx i q 0).val = (i 0).val := by
  unfold DotDims.lhsIdx
  rw [dif_neg (show ¬(0 : Fin Cert.KernelIdeal.S8000x32.rank) ∈ Cert.KernelIdeal.dot_S8000x32_S32x64_S8000x64_1_0_0_1_n_n.lhsBatch by decide), dif_pos (show (0 : Fin Cert.KernelIdeal.S8000x32.rank) ∈ Cert.KernelIdeal.dot_S8000x32_S32x64_S8000x64_1_0_0_1_n_n.lhsNonContracting by decide)]
  rfl
theorem dB_l1 (i : Cert.KernelIdeal.S8000x64.Idx) (q : Cert.KernelIdeal.dot_S8000x32_S32x64_S8000x64_1_0_0_1_n_n.contr.Idx) :
    (Cert.KernelIdeal.dot_S8000x32_S32x64_S8000x64_1_0_0_1_n_n.lhsIdx i q 1).val = (q ⟨0, by decide⟩).val :=
  Cert.KernelIdeal.dot_S8000x32_S32x64_S8000x64_1_0_0_1_n_n.lhsIdx_val_of_single rfl i q
theorem dB_r0 (i : Cert.KernelIdeal.S8000x64.Idx) (q : Cert.KernelIdeal.dot_S8000x32_S32x64_S8000x64_1_0_0_1_n_n.contr.Idx) :
    (Cert.KernelIdeal.dot_S8000x32_S32x64_S8000x64_1_0_0_1_n_n.rhsIdx i q 0).val = (q ⟨0, by decide⟩).val :=
  Cert.KernelIdeal.dot_S8000x32_S32x64_S8000x64_1_0_0_1_n_n.rhsIdx_val_of_single rfl i q
theorem dB_r1 (i : Cert.KernelIdeal.S8000x64.Idx) (q : Cert.KernelIdeal.dot_S8000x32_S32x64_S8000x64_1_0_0_1_n_n.contr.Idx) :
    (Cert.KernelIdeal.dot_S8000x32_S32x64_S8000x64_1_0_0_1_n_n.rhsIdx i q 1).val = (i 1).val := by
  unfold DotDims.rhsIdx
  rw [dif_neg (show ¬(1 : Fin Cert.KernelIdeal.S32x64.rank) ∈ Cert.KernelIdeal.dot_S8000x32_S32x64_S8000x64_1_0_0_1_n_n.rhsBatch by decide), dif_pos (show (1 : Fin Cert.KernelIdeal.S32x64.rank) ∈ Cert.KernelIdeal.dot_S8000x32_S32x64_S8000x64_1_0_0_1_n_n.rhsNonContracting by decide)]
  rfl

theorem dC_l0 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx i q 0).val = (i 0).val := by
  unfold DotDims.lhsIdx
  rw [dif_neg (show ¬(0 : Fin Cert.KernelIdeal.S5000x64.rank) ∈ Cert.KernelIdeal.dot_S5000x64_S64x64_S5000x64_1_0_0_1_n_n.lhsBatch by decide), dif_pos (show (0 : Fin Cert.KernelIdeal.S5000x64.rank) ∈ Cert.KernelIdeal.dot_S5000x64_S64x64_S5000x64_1_0_0_1_n_n.lhsNonContracting by decide)]
  rfl
theorem dC_l1 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx i q 1).val = (q ⟨0, by decide⟩).val :=
  Cert.KernelIdeal.dot_S5000x64_S64x64_S5000x64_1_0_0_1_n_n.lhsIdx_val_of_single rfl i q
theorem dC_r0 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx i q 0).val = (q ⟨0, by decide⟩).val :=
  Cert.KernelIdeal.dot_S5000x64_S64x64_S5000x64_1_0_0_1_n_n.rhsIdx_val_of_single rfl i q
theorem dC_r1 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx i q 1).val = (i 1).val := by
  unfold DotDims.rhsIdx
  rw [dif_neg (show ¬(1 : Fin Cert.KernelIdeal.S64x64.rank) ∈ Cert.KernelIdeal.dot_S5000x64_S64x64_S5000x64_1_0_0_1_n_n.rhsBatch by decide), dif_pos (show (1 : Fin Cert.KernelIdeal.S64x64.rank) ∈ Cert.KernelIdeal.dot_S5000x64_S64x64_S5000x64_1_0_0_1_n_n.rhsNonContracting by decide)]
  rfl

/-! ## An affine layer at an entry -/

/-- A product into a zero accumulator plus a one-row bias broadcast down the rows, at the entry `(r, q)`: the sum over
    the contracted axis plus the bias at `q`. -/
theorem affine_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (bias : FVec Ideal ⟨2, ![1, b]⟩ .f32)
    (hc : (⟨2, ![1, b]⟩ : Shape).ShapeCasts ⟨2, ![1, b]⟩) (hb : (⟨2, ![1, b]⟩ : Shape).Broadcasts ⟨2, ![a, b]⟩)
    (r : Fin a) (q : Fin b) :
    addf (matmul d none lhs rhs (constant (F := Ideal) ⟨2, ![a, b]⟩ .f32 0x00000000#32))
        (broadcastTo ⟨2, ![a, b]⟩ (shapeCast ⟨2, ![1, b]⟩ bias hc) hb) (ix2 r q)
      = (∑ k : Fin K, lhs (ix2 r k) * rhs (ix2 k q)) + bias (ix2 (0 : Fin 1) q) := by
  rw [addf_apply, Cert.RowOps.matmul_zero_entry d hr hs hl0 hl1 hr0 hr1, broadcastTo_1b_ab_apply, shapeCast_self]

/-! ## The first body: messages of a block of edges -/

/-- The hidden layer of the first body at `(p, j)`. -/
theorem hidden_entry (x0 : FVec Ideal S8000x3 .f32) (x2 : FVec Ideal S3x32 .f32) (x3 : FVec Ideal S1x32 .f32)
    (p : Fin 8000) (j : Fin 32) :
    maximumf (addf (matmul dot_S8000x3_S3x32_S8000x32_1_0_0_1_n_n none
          (truncf .bf16 x0 bitsLt_bf16_f32 : FVec Ideal S8000x3 .bf16) (truncf .bf16 x2 bitsLt_bf16_f32 : FVec Ideal S3x32 .bf16)
          (constant (F := Ideal) S8000x32 .f32 0x00000000#32))
        (broadcastTo S8000x32 (shapeCast S1x32 x3 shapeCasts_S1x32_S1x32) broadcasts_S1x32_S8000x32))
      (broadcast S8000x32 (Scalar.ofBits (F := Ideal) .f32 0x00000000#32)) (ix2 p j)
      = hidden (fun k => x0 (ix2 p k)) x2 (fun j => x3 (ix2 (0 : Fin 1) j)) j := by
  rw [maximumf_apply, affine_entry dot_S8000x3_S3x32_S8000x32_1_0_0_1_n_n rfl rfl dA_l0 dA_l1 dA_r0 dA_r1]
  rfl

/-- THE FIRST BODY AT AN ENTRY: the source feature times the edge weight of the block's coordinate row. -/
theorem edge_payload_entry (x0 : FVec Ideal S8000x3 .f32) (x2 : FVec Ideal S3x32 .f32) (x3 : FVec Ideal S1x32 .f32)
    (x4 : FVec Ideal S32x64 .f32) (x5 : FVec Ideal S1x64 .f32) (x1 : FVec Ideal S8000x64 .bf16) (p : Fin 8000) (q : Fin 64) :
    k0_pay1 (F := Ideal) x0 x2 x3 x4 x5 x1 (ix2 p q)
      = x1 (ix2 p q) * edgeWeight (fun k => x0 (ix2 p k)) x2 (fun j => x3 (ix2 (0 : Fin 1) j)) x4
          (fun c => x5 (ix2 (0 : Fin 1) c)) q := by
  unfold k0_pay1
  rw [mulf_apply, extf_apply, shapeCast_self,
    affine_entry dot_S8000x32_S32x64_S8000x64_1_0_0_1_n_n rfl rfl dB_l0 dB_l1 dB_r0 dB_r1]
  unfold edgeWeight
  refine congrArg (fun z => x1 (ix2 p q) * (z + x5 (ix2 (0 : Fin 1) q))) (Finset.sum_congr rfl fun j _ => ?_)
  rw [truncf_apply, truncf_apply, hidden_entry]

/-! ## The second body: the channel mix of a block of nodes -/

/-- THE SECOND BODY AT AN ENTRY: the node's aggregated row times a column of the mixing matrix, plus the bias. -/
theorem mix_payload_entry (x0 : FVec Ideal S5000x64 .f32) (x1 : FVec Ideal S64x64 .f32) (x2 : FVec Ideal S1x64 .f32)
    (p : Fin 5000) (q : Fin 64) :
    k1_pay1 (F := Ideal) x0 x1 x2 (ix2 p q)
      = (∑ k : Fin 64, x0 (ix2 p k) * x1 (ix2 k q)) + x2 (ix2 (0 : Fin 1) q) := by
  unfold k1_pay1
  rw [affine_entry dot_S5000x64_S64x64_S5000x64_1_0_0_1_n_n rfl rfl dC_l0 dC_l1 dC_r0 dC_r1]
  refine congrArg (· + x2 (ix2 (0 : Fin 1) q)) (Finset.sum_congr rfl fun k _ => ?_)
  rw [truncf_apply, truncf_apply, shapeCast_self]

end Cert.PointConv.Blocks

end
-- ==== Proof.MsgsArray.lean ====
/-
  The edge-message region as one whole-array function.

  The region runs over 100 grid points; point t stages rows [8000 t, 8000 t + 8000) of the coordinate array and of
  the gathered source features, the whole perceptron parameters, and writes back rows [8000 t, 8000 t + 8000) of the
  message array.  What the body leaves at a point is the block of `messages` of the region-entry arrays under that
  point's rectangle: a block's element (p, q) sits in the array at (8000 t + p, q), and an edge's weight depends on the
  edge only through its own coordinate row.  The 100 blocks tile the 800000 rows, so the array after the region is
  `messages` of the region-entry contents everywhere.  All of it is stated at any region-entry contents `V`.
-/
import proofs.«163828_j28501402976579_1_alg».proof.Proof.Gen.KernelIdeal.Frame
import proofs.«163828_j28501402976579_1_alg».proof.Proof.Blocks
import Idealize.ShloMosaic.Lib.Pipeline.Value

set_option maxRecDepth 16384

noncomputable section

namespace Cert.KernelIdeal.MsgsArray

open Cert.KernelIdeal Cert.KernelIdeal.Gen Cert.PointConv Cert.PointConv.Blocks
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The message array as a function of the region-entry arrays: the gathered features, the coordinates, and the
    perceptron's parameters (each bias read off its one row). -/
abbrev G (c : Dev nD) : S800000x64.Idx → Elt Ideal .f32 :=
  messages (V c main_v7) (V c main_arg1) (V c main_arg4) (fun j => V c main_v8 (ix2 (0 : Fin 1) j)) (V c main_arg6)
    (fun q => V c main_v9 (ix2 (0 : Fin 1) q))

/-- One block against the whole: when a block's source feature and coordinate row are the array's at the matching
    edge, and the parameters are the arrays', the body's entry is the message array's entry. -/
theorem block_is_messages (x0 : FVec Ideal S8000x3 .f32) (x1 : FVec Ideal S8000x64 .bf16) (x2 : FVec Ideal S3x32 .f32)
    (x3 : FVec Ideal S1x32 .f32) (x4 : FVec Ideal S32x64 .f32) (x5 : FVec Ideal S1x64 .f32)
    (xs : FVec Ideal ⟨2, ![800000, 64]⟩ .f32) (rp : FVec Ideal ⟨2, ![800000, 3]⟩ .f32)
    (W1 : FVec Ideal ⟨2, ![3, 32]⟩ .f32) (b1 : Fin 32 → EReal) (W2 : FVec Ideal ⟨2, ![32, 64]⟩ .f32) (b2 : Fin 64 → EReal)
    (y : S8000x64.Idx) (i : (⟨2, ![800000, 64]⟩ : Shape).Idx)
    (h1 : x1 y = xs i)
    (h0 : ∀ k : Fin 3, x0 (ix2 (⟨(y 0).val, (y 0).isLt⟩ : Fin 8000) k) = rp (ix2 (⟨(i 0).val, (i 0).isLt⟩ : Fin 800000) k))
    (hc : (y 1).val = (i 1).val)
    (h2 : x2 = W1) (h3 : (fun j : Fin 32 => x3 (ix2 (0 : Fin 1) j)) = b1) (h4 : x4 = W2)
    (h5 : (fun q : Fin 64 => x5 (ix2 (0 : Fin 1) q)) = b2) :
    k0_pay1 (F := Ideal) x0 x2 x3 x4 x5 x1 y = messages xs rp W1 b1 W2 b2 i := by
  subst h2 h3 h4 h5
  obtain ⟨p, q, rfl⟩ : ∃ (p : Fin 8000) (q : Fin 64), y = ix2 p q := ⟨y 0, y 1, eq_ix2 y⟩
  obtain ⟨e, c, rfl⟩ : ∃ (e : Fin 800000) (c : Fin 64), i = ix2 e c := ⟨i 0, i 1, eq_ix2 i⟩
  have hqc : q = c := Fin.ext hc
  subst hqc
  rw [edge_payload_entry, messages_entry, h1]
  exact congrArg (fun r => xs (ix2 e q) * edgeWeight r x2 (fun j => x3 (ix2 (0 : Fin 1) j)) x4 (fun q => x5 (ix2 (0 : Fin 1) q)) q)
    (funext fun k => h0 k)

/-- The printed index maps over the 100 points: the row-tiled windows sit at block row `t`, column block 0; the
    parameter windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the message array of the region-entry contents. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S8000x3) hz, View.ld_unit_zero (S := S8000x64) hz, View.ld_unit_zero (S := S3x32) hz,
    View.ld_unit_zero (S := S1x32) hz, View.ld_unit_zero (S := S32x64) hz, View.ld_unit_zero (S := S1x64) hz]
  obtain ⟨e00, e01, e10, e11, e20, e21, e30, e31, e40, e41, e50, e51, e60, e61⟩ := idx_facts t
  funext j
  show k0_pay1 (F := Ideal) (iblk0 V c 0 t) (iblk0 V c 2 t) (iblk0 V c 3 t) (iblk0 V c 4 t) (iblk0 V c 5 t) (iblk0 V c 1 t) j
    = G V c (((cfg0.win 6).blk t).view.emb j)
  have hj0 : (j 0).val < 8000 := (j 0).isLt
  have hj1 : (j 1).val < 64 := (j 1).isLt
  refine block_is_messages (iblk0 V c 0 t) (iblk0 V c 1 t) (iblk0 V c 2 t) (iblk0 V c 3 t) (iblk0 V c 4 t) (iblk0 V c 5 t)
    (V c main_v7) (V c main_arg1) (V c main_arg4) (fun j => V c main_v8 (ix2 (0 : Fin 1) j)) (V c main_arg6)
    (fun q => V c main_v9 (ix2 (0 : Fin 1) q)) j (((cfg0.win 6).blk t).view.emb j) ?_ ?_ ?_ ?_ ?_ ?_ ?_
  · show V c main_v7 (((cfg0.win 1).blk t).view.emb j) = V c main_v7 (((cfg0.win 6).blk t).view.emb j)
    refine congrArg (V c main_v7) (funext fun a => Fin.ext ?_)
    match a with
    | ⟨0, _⟩ => show win0_1.index t (0 : Fin 2) * 8000 + 1 * (j 0).val = win0_6.index t (0 : Fin 2) * 8000 + 1 * (j 0).val; omega
    | ⟨1, _⟩ => show win0_1.index t (1 : Fin 2) * 64 + 1 * (j 1).val = win0_6.index t (1 : Fin 2) * 64 + 1 * (j 1).val; omega
  · intro k
    show V c main_arg1 (((cfg0.win 0).blk t).view.emb (ix2 (⟨(j 0).val, hj0⟩ : Fin 8000) k))
      = V c main_arg1 (ix2 (⟨((((cfg0.win 6).blk t).view.emb j) 0).val, ((((cfg0.win 6).blk t).view.emb j) 0).isLt⟩ : Fin 800000) k)
    refine congrArg (V c main_arg1) (funext fun a => Fin.ext ?_)
    match a with
    | ⟨0, _⟩ => show win0_0.index t (0 : Fin 2) * 8000 + 1 * (j 0).val = win0_6.index t (0 : Fin 2) * 8000 + 1 * (j 0).val; omega
    | ⟨1, _⟩ => show win0_0.index t (1 : Fin 2) * 3 + 1 * k.val = k.val; omega
  · show (j 1).val = win0_6.index t (1 : Fin 2) * 64 + 1 * (j 1).val
    omega
  · funext y
    show V c main_arg4 (((cfg0.win 2).blk t).view.emb y) = V c main_arg4 y
    refine congrArg (V c main_arg4) (funext fun a => Fin.ext ?_)
    match a with
    | ⟨0, _⟩ => show win0_2.index t (0 : Fin 2) * 3 + 1 * (y 0).val = (y 0).val; omega
    | ⟨1, _⟩ => show win0_2.index t (1 : Fin 2) * 32 + 1 * (y 1).val = (y 1).val; omega
  · funext jj
    show V c main_v8 (((cfg0.win 3).blk t).view.emb (ix2 (0 : Fin 1) jj)) = V c main_v8 (ix2 (0 : Fin 1) jj)
    refine congrArg (V c main_v8) (funext fun a => Fin.ext ?_)
    match a with
    | ⟨0, _⟩ => show win0_3.index t (0 : Fin 2) * 1 + 1 * 0 = 0; omega
    | ⟨1, _⟩ => show win0_3.index t (1 : Fin 2) * 32 + 1 * jj.val = jj.val; omega
  · funext y
    show V c main_arg6 (((cfg0.win 4).blk t).view.emb y) = V c main_arg6 y
    refine congrArg (V c main_arg6) (funext fun a => Fin.ext ?_)
    match a with
    | ⟨0, _⟩ => show win0_4.index t (0 : Fin 2) * 32 + 1 * (y 0).val = (y 0).val; omega
    | ⟨1, _⟩ => show win0_4.index t (1 : Fin 2) * 64 + 1 * (y 1).val = (y 1).val; omega
  · funext qq
    show V c main_v9 (((cfg0.win 5).blk t).view.emb (ix2 (0 : Fin 1) qq)) = V c main_v9 (ix2 (0 : Fin 1) qq)
    refine congrArg (V c main_v9) (funext fun a => Fin.ext ?_)
    match a with
    | ⟨0, _⟩ => show win0_5.index t (0 : Fin 2) * 1 + 1 * 0 = 0; omega
    | ⟨1, _⟩ => show win0_5.index t (1 : Fin 2) * 64 + 1 * qq.val = qq.val; omega

/-- An index of the message array is in point `t`'s block iff each coordinate is in the block's range on its axis. -/
theorem mem_blk (t : Fin cfg0.N) (i : S800000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v10).slice (win0_6.rect t)).set ↔ _
  rw [View.set_slice_whole, Rect.mem_set_unit]
  exact Iff.rfl

/-- Every row of the message array lies in the block of the point `row / 8000`. -/
theorem cover (i : S800000x64.Idx) :
    ∃ t : Fin cfg0.N, (cfg0.win 6).flush t = true ∧ i ∈ ((cfg0.win 6).blk t).view.set := by
  have hi0 : (i 0).val < 800000 := (i 0).isLt
  have hi1 : (i 1).val < 64 := (i 1).isLt
  have hN : cfg0.N = 100 := N_0
  let t : Fin cfg0.N := ⟨(i 0).val / 8000, by rw [hN]; omega⟩
  have ht : t.val = (i 0).val / 8000 := rfl
  obtain ⟨e00, e01, e10, e11, e20, e21, e30, e31, e40, e41, e50, e51, e60, e61⟩ := idx_facts t
  refine ⟨t, flush0_6 t, ?_⟩
  rw [mem_blk]
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 64 ≤ (i 1).val ∧ (i 1).val < win0_6.index t (1 : Fin 2) * 64 + 64; omega

/-- THE MESSAGE ARRAY after the region is `messages` of the region-entry contents. -/
theorem final (c : Dev nD) : (dat0 V c).arrAt 6 cfg0.N = G V c :=
  (dat0 V c).arrAt_eq_of_cover 6 (G V c) (fun t _ => flushed_eq V c t) cover

end Cert.KernelIdeal.MsgsArray

end
-- ==== Proof.MixArray.lean ====
/-
  The channel-mix region as one whole-array function.

  The region runs over 10 grid points; point t stages rows [5000 t, 5000 t + 5000) of the aggregated features, the whole
  mixing matrix and the bias row, and writes back rows [5000 t, 5000 t + 5000) of the result.  A node's output row
  depends only on the node's own aggregated row, so what the body leaves at a point is the block of `mixed` of the
  region-entry arrays under the point's rectangle, and the 10 blocks tile the 50000 rows.
-/
import proofs.«163828_j28501402976579_1_alg».proof.Proof.Gen.KernelIdeal.Frame
import proofs.«163828_j28501402976579_1_alg».proof.Proof.Blocks
import Idealize.ShloMosaic.Lib.Pipeline.Value

set_option maxRecDepth 16384

noncomputable section

namespace Cert.KernelIdeal.MixArray

open Cert.KernelIdeal Cert.KernelIdeal.Gen Cert.PointConv Cert.PointConv.Blocks
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The result array as a function of the region-entry arrays: the aggregated features, the mixing matrix and the
    bias read off its one row. -/
abbrev G (c : Dev nD) : S50000x64.Idx → Elt Ideal .f32 :=
  mixed (V c main_v13) (V c main_arg8) (fun q => V c main_v14 (ix2 (0 : Fin 1) q))

/-- One block against the whole: when a block's aggregated row is the array's at the matching node and the parameters
    are the arrays', the body's entry is the result array's entry. -/
theorem block_is_mixed (x0 : FVec Ideal S5000x64 .f32) (x1 : FVec Ideal S64x64 .f32) (x2 : FVec Ideal S1x64 .f32)
    (agg : FVec Ideal ⟨2, ![50000, 64]⟩ .f32) (Wout : FVec Ideal ⟨2, ![64, 64]⟩ .f32) (bout : Fin 64 → EReal)
    (y : S5000x64.Idx) (i : (⟨2, ![50000, 64]⟩ : Shape).Idx)
    (h0 : ∀ k : Fin 64, x0 (ix2 (⟨(y 0).val, (y 0).isLt⟩ : Fin 5000) k) = agg (ix2 (⟨(i 0).val, (i 0).isLt⟩ : Fin 50000) k))
    (hc : (y 1).val = (i 1).val)
    (h1 : x1 = Wout) (h2 : (fun q : Fin 64 => x2 (ix2 (0 : Fin 1) q)) = bout) :
    k1_pay1 (F := Ideal) x0 x1 x2 y = mixed agg Wout bout i := by
  subst h1 h2
  obtain ⟨p, q, rfl⟩ : ∃ (p : Fin 5000) (q : Fin 64), y = ix2 p q := ⟨y 0, y 1, eq_ix2 y⟩
  obtain ⟨n, c, rfl⟩ : ∃ (n : Fin 50000) (c : Fin 64), i = ix2 n c := ⟨i 0, i 1, eq_ix2 i⟩
  have hqc : q = c := Fin.ext hc
  subst hqc
  rw [mix_payload_entry, mixed_entry]
  exact congrArg (· + x2 (ix2 (0 : Fin 1) q)) (Finset.sum_congr rfl fun k _ => congrArg (· * x1 (ix2 k q)) (h0 k))

/-- The printed index maps over the 10 points: the row-tiled windows sit at block row `t`, column block 0; the
    parameter windows at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the result array of the region-entry contents. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz, View.ld_unit_zero (S := S1x64) hz]
  obtain ⟨e00, e01, e10, e11, e20, e21, e30, e31⟩ := idx_facts t
  funext j
  show k1_pay1 (F := Ideal) (iblk1 V c 0 t) (iblk1 V c 1 t) (iblk1 V c 2 t) j = G V c (((cfg1.win 3).blk t).view.emb j)
  have hj0 : (j 0).val < 5000 := (j 0).isLt
  have hj1 : (j 1).val < 64 := (j 1).isLt
  refine block_is_mixed (iblk1 V c 0 t) (iblk1 V c 1 t) (iblk1 V c 2 t) (V c main_v13) (V c main_arg8)
    (fun q => V c main_v14 (ix2 (0 : Fin 1) q)) j (((cfg1.win 3).blk t).view.emb j) ?_ ?_ ?_ ?_
  · intro k
    show V c main_v13 (((cfg1.win 0).blk t).view.emb (ix2 (⟨(j 0).val, hj0⟩ : Fin 5000) k))
      = V c main_v13 (ix2 (⟨((((cfg1.win 3).blk t).view.emb j) 0).val, ((((cfg1.win 3).blk t).view.emb j) 0).isLt⟩ : Fin 50000) k)
    refine congrArg (V c main_v13) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  · show (j 1).val = win1_3.index t (1 : Fin 2) * 64 + 1 * (j 1).val
    omega
  · funext y
    show V c main_arg8 (((cfg1.win 1).blk t).view.emb y) = V c main_arg8 y
    refine congrArg (V c main_arg8) (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · funext qq
    show V c main_v14 (((cfg1.win 2).blk t).view.emb (ix2 (0 : Fin 1) qq)) = V c main_v14 (ix2 (0 : Fin 1) qq)
    refine congrArg (V c main_v14) (funext fun a => Fin.ext ?_)
    match a with
    | ⟨0, _⟩ => show win1_2.index t (0 : Fin 2) * 1 + 1 * 0 = 0; omega
    | ⟨1, _⟩ => show win1_2.index t (1 : Fin 2) * 64 + 1 * qq.val = qq.val; omega

/-- An index of the result array is in point `t`'s block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v15).slice (win1_3.rect t)).set ↔ _
  rw [View.set_slice_whole, Rect.mem_set_unit]
  exact Iff.rfl

/-- Every row of the result array lies in the block of the point `row / 5000`. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have ht : t.val = (i 0).val / 5000 := rfl
  obtain ⟨e00, e01, e10, e11, e20, e21, e30, e31⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE RESULT ARRAY after the region is `mixed` of the region-entry contents. -/
theorem final (c : Dev nD) : (dat1 V c).arrAt 3 cfg1.N = G V c :=
  (dat1 V c).arrAt_eq_of_cover 3 (G V c) (fun t _ => flushed_eq V c t) cover

end Cert.KernelIdeal.MixArray

end
-- ==== Proof.KernelRun.lean ====
/-
  The idealized kernel's run with its result named.

  The program is four segments: host operations, the edge-message region, host operations, the channel-mix region.
  The contents of every buffer at each boundary are a fold through the program (`W0` the launch memory, `W1` after the
  first host stretch, `W2` after the first region, `W3` after the second host stretch, `W4` at the return).  Every
  weakly fair execution ends with every unscoped buffer at its `W4` contents; the generated frame reads only the
  arguments off that state.  Here the result buffer is read off it as well: it ends at `W4` of its own reference,
  which the next module unfolds back to the arguments.
-/
import proofs.«163828_j28501402976579_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result buffer at
    the last boundary's contents and the arguments as launched. -/
theorem run_result : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.ResultValue.lean ====
/-
  The idealized kernel's result as one function of its arguments.

  The result buffer ends at the channel-mix region's output array, which is `mixed` of that region's entry contents.
  Those are what the second host stretch leaves: the aggregate is the accumulating scatter, from zero, of the message
  array by the destination indices; the mixing matrix is the argument; the bias is the argument laid out as one row.
  The message array is the first region's output, `messages` of that region's entry contents, which the first host
  stretch leaves: the gathered rows of the (narrowed, which changes nothing here) feature table by the normalised
  source indices, the coordinates and the perceptron's matrices as launched, and the two biases as one row each.  No
  host operation and no region writes an argument, so each reads back to the launch memory.  Put together, the result
  is `layer` of the arguments.
-/
import proofs.«163828_j28501402976579_1_alg».proof.Proof.Gen.KernelIdeal.Frame
import proofs.«163828_j28501402976579_1_alg».proof.Proof.MsgsArray
import proofs.«163828_j28501402976579_1_alg».proof.Proof.MixArray
import proofs.«163828_j28501402976579_1_alg».proof.Proof.KernelRun
import Idealize.ShloMosaic.Lib.StableHlo.Run
import Idealize.ShloMosaic.Lib.ValueLayout

set_option maxRecDepth 16384

noncomputable section

namespace Cert.KernelIdeal.ResultValue

open Cert.KernelIdeal Cert.KernelIdeal.Gen Cert.PointConv
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-! ## The first host stretch, at the buffers the message region stages -/

/-- The gathered source rows: the feature table gathered by the normalised source indices. -/
theorem entry_gathered (c : Dev nD) :
    (V1 m ρ c main_v7 : S800000x64.Idx → EReal)
      = Host.gather gather_S50000x64_S800000x1_S800000x64_1_0_n_n_0_1_164
          (truncf .bf16 (m ((c : Thread nD τ).loc main_arg0)) bitsLt_bf16_f32 : FVec Ideal S50000x64 .bf16)
          (broadcastInDim S800000x1 ![0] bcast_S800000_S800000x1_0
            (select (cmpi .slt (m ((c : Thread nD τ).loc main_arg2)) (broadcastInDim S800000 ![] bcast_S_S800000 (constantI S_ 32 0#32)))
              (addi (m ((c : Thread nD τ).loc main_arg2)) (broadcastInDim S800000 ![] bcast_S_S800000 (constantI S_ 32 50000#32)))
              (m ((c : Thread nD τ).loc main_arg2)))) := by
  show StableHlo.after hostOps0 (W0 m ρ c) (Proc.devRef .tc main_v7) = _
  after_results <;> rfl

theorem entry_arg1 (c : Dev nD) : V1 m ρ c main_arg1 = (m ((c : Thread nD τ).loc main_arg1)) := by
  show StableHlo.after hostOps0 (W0 m ρ c) (Proc.devRef .tc main_arg1) = _
  after_results <;> rfl
theorem entry_arg4 (c : Dev nD) : V1 m ρ c main_arg4 = (m ((c : Thread nD τ).loc main_arg4)) := by
  show StableHlo.after hostOps0 (W0 m ρ c) (Proc.devRef .tc main_arg4) = _
  after_results <;> rfl
theorem entry_arg6 (c : Dev nD) : V1 m ρ c main_arg6 = (m ((c : Thread nD τ).loc main_arg6)) := by
  show StableHlo.after hostOps0 (W0 m ρ c) (Proc.devRef .tc main_arg6) = _
  after_results <;> rfl

/-- The first bias as the region finds it: the argument laid out as one row. -/
theorem entry_bias1 (c : Dev nD) :
    (V1 m ρ c main_v8 : S1x32.Idx → EReal) = shapeCast S1x32 (m ((c : Thread nD τ).loc main_arg5)) shapeCasts_S32_S1x32 := by
  show StableHlo.after hostOps0 (W0 m ρ c) (Proc.devRef .tc main_v8) = _
  after_results
  rfl
/-- The second bias as the region finds it: the argument laid out as one row. -/
theorem entry_bias2 (c : Dev nD) :
    (V1 m ρ c main_v9 : S1x64.Idx → EReal) = shapeCast S1x64 (m ((c : Thread nD τ).loc main_arg7)) shapeCasts_S64_S1x64 := by
  show StableHlo.after hostOps0 (W0 m ρ c) (Proc.devRef .tc main_v9) = _
  after_results
  rfl

theorem entry_bias1_row (c : Dev nD) :
    (fun j : Fin 32 => V1 m ρ c main_v8 (ix2 (0 : Fin 1) j)) = fun j => (m ((c : Thread nD τ).loc main_arg5)) (ix1 j) := by
  funext j
  rw [entry_bias1]
  exact shapeCast_a_1a_apply _ _ (0 : Fin 1) j
theorem entry_bias2_row (c : Dev nD) :
    (fun q : Fin 64 => V1 m ρ c main_v9 (ix2 (0 : Fin 1) q)) = fun q => (m ((c : Thread nD τ).loc main_arg7)) (ix1 q) := by
  funext q
  rw [entry_bias2]
  exact shapeCast_a_1a_apply _ _ (0 : Fin 1) q

/-! ## Between the regions: the arguments are untouched, the message array is the first region's -/

theorem mid_arg3 (c : Dev nD) : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    after_results <;> rfl)
theorem mid_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results <;> rfl)
theorem mid_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results <;> rfl)

/-- THE MESSAGE ARRAY between the regions, of the arguments. -/
theorem mid_messages (c : Dev nD) :
    W2 m ρ c (Proc.devRef .tc main_v10)
      = messages
          (Host.gather gather_S50000x64_S800000x1_S800000x64_1_0_n_n_0_1_164
            (truncf .bf16 (m ((c : Thread nD τ).loc main_arg0)) bitsLt_bf16_f32 : FVec Ideal S50000x64 .bf16)
            (broadcastInDim S800000x1 ![0] bcast_S800000_S800000x1_0
              (select (cmpi .slt (m ((c : Thread nD τ).loc main_arg2)) (broadcastInDim S800000 ![] bcast_S_S800000 (constantI S_ 32 0#32)))
                (addi (m ((c : Thread nD τ).loc main_arg2)) (broadcastInDim S800000 ![] bcast_S_S800000 (constantI S_ 32 50000#32)))
                (m ((c : Thread nD τ).loc main_arg2)))))
          (m ((c : Thread nD τ).loc main_arg1)) (m ((c : Thread nD τ).loc main_arg4)) (fun j => (m ((c : Thread nD τ).loc main_arg5)) (ix1 j)) (m ((c : Thread nD τ).loc main_arg6))
          (fun q => (m ((c : Thread nD τ).loc main_arg7)) (ix1 q)) := by
  refine (W2_arr m ρ c 6).trans ((MsgsArray.final (V1 m ρ) c).trans ?_)
  show messages (V1 m ρ c main_v7) (V1 m ρ c main_arg1) (V1 m ρ c main_arg4) (fun j => V1 m ρ c main_v8 (ix2 (0 : Fin 1) j))
    (V1 m ρ c main_arg6) (fun q => V1 m ρ c main_v9 (ix2 (0 : Fin 1) q)) = _
  rw [entry_gathered, entry_arg1, entry_arg4, entry_arg6, entry_bias1_row, entry_bias2_row]

/-! ## The second host stretch, at the buffers the channel-mix region stages -/

/-- The aggregate: the message array summed into its destination rows, from zero. -/
theorem entry_aggregate (c : Dev nD) :
    (V3 m ρ c main_v13 : S50000x64.Idx → EReal)
      = Host.scatterAdd (F := Ideal) scatter_S50000x64_S800000x1_S800000x64_1_0_0_1
          (broadcastInDim S50000x64 ![] bcast_S_S50000x64 (constant (F := Ideal) S_ .f32 0x00000000#32))
          (broadcastInDim S800000x1 ![0] bcast_S800000_S800000x1_0 (W2 m ρ c (Proc.devRef .tc main_arg3)))
          (W2 m ρ c (Proc.devRef .tc main_v10)) := by
  show StableHlo.after hostOps1 (W2 m ρ c) (Proc.devRef .tc main_v13) = _
  after_results <;> rfl
theorem entry_arg8 (c : Dev nD) : V3 m ρ c main_arg8 = (m ((c : Thread nD τ).loc main_arg8)) := by
  refine Eq.trans ?_ (mid_arg8 m ρ c)
  show StableHlo.after hostOps1 (W2 m ρ c) (Proc.devRef .tc main_arg8) = _
  after_results <;> rfl
/-- The last bias as the region finds it: the argument laid out as one row. -/
theorem entry_bias3 (c : Dev nD) :
    (V3 m ρ c main_v14 : S1x64.Idx → EReal) = shapeCast S1x64 (W2 m ρ c (Proc.devRef .tc main_arg9)) shapeCasts_S64_S1x64 := by
  show StableHlo.after hostOps1 (W2 m ρ c) (Proc.devRef .tc main_v14) = _
  after_results
  rfl
theorem entry_bias3_row (c : Dev nD) :
    (fun q : Fin 64 => V3 m ρ c main_v14 (ix2 (0 : Fin 1) q)) = fun q => (m ((c : Thread nD τ).loc main_arg9)) (ix1 q) := by
  funext q
  rw [entry_bias3, mid_arg9]
  exact shapeCast_a_1a_apply _ _ (0 : Fin 1) q

/-! ## The result -/

/-- THE RESULT BUFFER at the return is `layer` of the arguments. -/
theorem result_value (c : Dev nD) :
    W4 m ρ c (Proc.devRef .tc main_v15)
      = layer gather_S50000x64_S800000x1_S800000x64_1_0_n_n_0_1_164 scatter_S50000x64_S800000x1_S800000x64_1_0_0_1
          bcast_S_S50000x64 bcast_S800000_S800000x1_0 bcast_S_S800000
          (m ((c : Thread nD τ).loc main_arg0)) (m ((c : Thread nD τ).loc main_arg1)) (m ((c : Thread nD τ).loc main_arg2)) (m ((c : Thread nD τ).loc main_arg3)) (m ((c : Thread nD τ).loc main_arg4))
          (fun j => (m ((c : Thread nD τ).loc main_arg5)) (ix1 j)) (m ((c : Thread nD τ).loc main_arg6)) (fun q => (m ((c : Thread nD τ).loc main_arg7)) (ix1 q))
          (m ((c : Thread nD τ).loc main_arg8)) (fun q => (m ((c : Thread nD τ).loc main_arg9)) (ix1 q)) := by
  refine (W4_arr m ρ c 3).trans ((MixArray.final (V3 m ρ) c).trans ?_)
  show mixed (V3 m ρ c main_v13) (V3 m ρ c main_arg8) (fun q => V3 m ρ c main_v14 (ix2 (0 : Fin 1) q)) = _
  rw [entry_aggregate, entry_arg8, entry_bias3_row, mid_arg3, mid_messages]
  rfl

/-- THE RUN: every weakly fair execution of the idealized kernel ends with the result at `layer` of the arguments and
    the arguments as launched. -/
theorem run : θ_run defs (onTc (τ := τ) (main (F := Ideal))) ⟨m, fun _ => 0, ρ⟩ (fun r => ∀ c : Dev nD,
      r.2.mem ((c.tc : Thread nD τ).loc main_v15)
        = layer gather_S50000x64_S800000x1_S800000x64_1_0_n_n_0_1_164 scatter_S50000x64_S800000x1_S800000x64_1_0_0_1
          bcast_S_S50000x64 bcast_S800000_S800000x1_0 bcast_S_S800000
          (m ((c : Thread nD τ).loc main_arg0)) (m ((c : Thread nD τ).loc main_arg1)) (m ((c : Thread nD τ).loc main_arg2)) (m ((c : Thread nD τ).loc main_arg3)) (m ((c : Thread nD τ).loc main_arg4))
          (fun j => (m ((c : Thread nD τ).loc main_arg5)) (ix1 j)) (m ((c : Thread nD τ).loc main_arg6)) (fun q => (m ((c : Thread nD τ).loc main_arg7)) (ix1 q))
          (m ((c : Thread nD τ).loc main_arg8)) (fun q => (m ((c : Thread nD τ).loc main_arg9)) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_value m ρ c), (h c).2⟩)
    (Cert.KernelIdeal.RunValue.run_result m ρ)

end Cert.KernelIdeal.ResultValue

end
-- ==== Proof.RefValue.lean ====
/-
  The reference, stage by stage, is the same mathematics.

  The reference multiplies the coordinates by W1 as one product over all 800000 edges, adds the bias broadcast down
  the rows, rectifies against zero, multiplies by W2, adds the second bias, and multiplies by the gathered features.
  Read at the entry (e, c) each product is the sum over its contracted axis and each broadcast bias is the bias at its
  channel, so the message stage is `messages` of the gathered features and the parameters.  The last stage reads, at
  (n, c), the sum over k of the aggregate at (n, k) times Wout at (k, c), plus the bias at c: it is `mixed` of the
  aggregate stage.  The gather and the accumulating scatter are left as the operations they are.
-/
import proofs.«163828_j28501402976579_1_alg».proof.Proof.Gen.ReferenceIdeal.Read
import proofs.«163828_j28501402976579_1_alg».proof.Proof.Spec

noncomputable section

namespace Cert.ReferenceIdeal.RefValue

open Cert.ReferenceIdeal Cert.ReferenceIdeal.Gen Cert.ReferenceIdeal.Read Cert.PointConv
open Idealize.ShloMosaic Idealize.ShloMosaic.ValueIdx
open scoped BigOperators

/-! ## The stages' index functions are the plain coordinates -/

theorem lidx0 (e : Fin 800000) (j : Fin 32) (k : Fin 3) : lidx_main_v0 (ix2 e j) k = ix2 e k :=
  funext fun a => Fin.ext (by match a with | ⟨0, _⟩ => rfl | ⟨1, _⟩ => rfl)
theorem ridx0 (e : Fin 800000) (j : Fin 32) (k : Fin 3) : ridx_main_v0 (ix2 e j) k = ix2 k j :=
  funext fun a => Fin.ext (by match a with | ⟨0, _⟩ => rfl | ⟨1, _⟩ => rfl)
theorem bidx1 (e : Fin 800000) (j : Fin 32) : idx_main_v1 (idx_main_v2 (ix2 e j)) = ix1 j :=
  funext fun a => Fin.ext (by match a with | ⟨0, _⟩ => rfl)
theorem lidx5 (e : Fin 800000) (c : Fin 64) (j : Fin 32) : lidx_main_v5 (ix2 e c) j = ix2 e j :=
  funext fun a => Fin.ext (by match a with | ⟨0, _⟩ => rfl | ⟨1, _⟩ => rfl)
theorem ridx5 (e : Fin 800000) (c : Fin 64) (j : Fin 32) : ridx_main_v5 (ix2 e c) j = ix2 j c :=
  funext fun a => Fin.ext (by match a with | ⟨0, _⟩ => rfl | ⟨1, _⟩ => rfl)
theorem bidx6 (e : Fin 800000) (c : Fin 64) : idx_main_v6 (idx_main_v7 (ix2 e c)) = ix1 c :=
  funext fun a => Fin.ext (by match a with | ⟨0, _⟩ => rfl)
theorem lidx20 (n : Fin 50000) (c : Fin 64) (k : Fin 64) : lidx_main_v20 (ix2 n c) k = ix2 n k :=
  funext fun a => Fin.ext (by match a with | ⟨0, _⟩ => rfl | ⟨1, _⟩ => rfl)
theorem ridx20 (n : Fin 50000) (c : Fin 64) (k : Fin 64) : ridx_main_v20 (ix2 n c) k = ix2 k c :=
  funext fun a => Fin.ext (by match a with | ⟨0, _⟩ => rfl | ⟨1, _⟩ => rfl)
theorem bidx21 (n : Fin 50000) (c : Fin 64) : idx_main_v21 (idx_main_v22 (ix2 n c)) = ix1 c :=
  funext fun a => Fin.ext (by match a with | ⟨0, _⟩ => rfl)

/-! ## The stages -/

/-- The rectified hidden stage at `(e, j)` is the perceptron's hidden unit `j` on edge `e`'s coordinate row. -/
theorem hidden_stage (x1 : (⟨S800000x3, .f32⟩ : BufTy).Contents (Elt Ideal)) (x4 : (⟨S3x32, .f32⟩ : BufTy).Contents (Elt Ideal))
    (x5 : (⟨S32, .f32⟩ : BufTy).Contents (Elt Ideal)) (e : Fin 800000) (j : Fin 32) :
    val_main_v4 (F := Ideal) x1 x4 x5 (ix2 e j) = hidden (fun k => x1 (ix2 e k)) x4 (fun j => x5 (ix1 j)) j := by
  rw [val_main_v4_apply, val_main_v3_apply, val_main_v0_apply, val_main_v2_apply, val_main_v1_apply,
    val_main_call0_v0_apply, val_main_call0_cst_apply]
  simp only [lidx0, ridx0, bidx1, Ideal.maximumf_def, Ideal.addf_def, Ideal.ofBits_def]
  rfl

/-- THE MESSAGE STAGE is `messages` of the gathered features and the parameters. -/
theorem messages_stage (x0 : (⟨S50000x64, .f32⟩ : BufTy).Contents (Elt Ideal)) (x1 : (⟨S800000x3, .f32⟩ : BufTy).Contents (Elt Ideal))
    (x2 : (⟨S800000, .i32⟩ : BufTy).Contents (Elt Ideal)) (x4 : (⟨S3x32, .f32⟩ : BufTy).Contents (Elt Ideal))
    (x5 : (⟨S32, .f32⟩ : BufTy).Contents (Elt Ideal)) (x6 : (⟨S32x64, .f32⟩ : BufTy).Contents (Elt Ideal))
    (x7 : (⟨S64, .f32⟩ : BufTy).Contents (Elt Ideal)) :
    val_main_v16 (F := Ideal) x0 x1 x2 x4 x5 x6 x7
      = messages (val_main_v15 (F := Ideal) x0 x2) x1 x4 (fun j => x5 (ix1 j)) x6 (fun q => x7 (ix1 q)) := by
  funext i
  obtain ⟨e, c, rfl⟩ : ∃ (e : Fin 800000) (c : Fin 64), i = ix2 e c := ⟨i 0, i 1, eq_ix2 i⟩
  rw [messages_entry, val_main_v16_apply, val_main_v8_apply, val_main_v5_apply, val_main_v7_apply, val_main_v6_apply]
  simp only [lidx5, ridx5, bidx6, hidden_stage, Ideal.mulf_def, Ideal.addf_def]
  rfl

/-- THE LAST STAGE is `mixed` of the aggregate stage. -/
theorem mixed_stage (x0 : (⟨S50000x64, .f32⟩ : BufTy).Contents (Elt Ideal)) (x1 : (⟨S800000x3, .f32⟩ : BufTy).Contents (Elt Ideal))
    (x2 x3 : (⟨S800000, .i32⟩ : BufTy).Contents (Elt Ideal)) (x4 : (⟨S3x32, .f32⟩ : BufTy).Contents (Elt Ideal))
    (x5 : (⟨S32, .f32⟩ : BufTy).Contents (Elt Ideal)) (x6 : (⟨S32x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) :
    val_main_v23 (F := Ideal) x0 x1 x2 x3 x4 x5 x6 x7 x8 x9
      = mixed (val_main_v19 (F := Ideal) x0 x1 x2 x3 x4 x5 x6 x7) x8 (fun q => x9 (ix1 q)) := by
  funext i
  obtain ⟨n, c, rfl⟩ : ∃ (n : Fin 50000) (c : Fin 64), i = ix2 n c := ⟨i 0, i 1, eq_ix2 i⟩
  rw [mixed_entry, val_main_v23_apply, val_main_v20_apply, val_main_v22_apply, val_main_v21_apply]
  simp only [lidx20, ridx20, bidx21, Ideal.addf_def]

/-- THE REFERENCE'S RESULT is the layer of its arguments: the last stage is the channel mix of the aggregate, the
    aggregate is the accumulating scatter of the message stage from zero, and the message stage is `messages` of the
    gathered rows. -/
theorem result_stage (x0 : (⟨S50000x64, .f32⟩ : BufTy).Contents (Elt Ideal)) (x1 : (⟨S800000x3, .f32⟩ : BufTy).Contents (Elt Ideal))
    (x2 x3 : (⟨S800000, .i32⟩ : BufTy).Contents (Elt Ideal)) (x4 : (⟨S3x32, .f32⟩ : BufTy).Contents (Elt Ideal))
    (x5 : (⟨S32, .f32⟩ : BufTy).Contents (Elt Ideal)) (x6 : (⟨S32x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) :
    val_main_v23 (F := Ideal) x0 x1 x2 x3 x4 x5 x6 x7 x8 x9
      = layer gather_S50000x64_S800000x1_S800000x64_1_0_n_n_0_1_164 scatter_S50000x64_S800000x1_S800000x64_1_0_0_1
          bcast_S_S50000x64 bcast_S800000_S800000x1_0 bcast_S_S800000
          x0 x1 x2 x3 x4 (fun j => x5 (ix1 j)) x6 (fun q => x7 (ix1 q)) x8 (fun q => x9 (ix1 q)) := by
  rw [mixed_stage]
  unfold val_main_v19
  rw [messages_stage]
  rfl

end Cert.ReferenceIdeal.RefValue

end
-- ==== Proof.lean ====
/-
  A point-convolution layer on a graph of 50000 nodes and 800000 edges, computed by a kernel and by a plain reference:
  both are one function of the arguments on the extended reals.

  Every edge has a coordinate row of three numbers, which a two-layer perceptron (3 → 32, rectified, → 64) turns into
  64 channel weights; the edge's message is its source node's feature row times those weights; messages are summed into
  their destination nodes; each node's sum is mixed by a 64 × 64 matrix and a bias.

  The kernel gathers the source rows and sums the messages on the host, exactly as the reference does, and computes the
  two dense parts in tiled regions: the messages in blocks of 8000 edges, the channel mix in blocks of 5000 nodes, with
  its matrix operands narrowed to bf16 on the way in.  On the extended reals narrowing is the identity, a product into
  a zero accumulator is the plain sum over the contracted axis, and an edge's weights depend only on the edge's own
  coordinate row (a node's output only on its own aggregated row), so each region's output array is the same whole-array
  function the reference computes in one piece, whatever the tiling.  The gather and the accumulating scatter get equal
  operands on both sides and are never opened.  Only commutative-monoid facts about sums are used: no finiteness of
  the inputs is needed.

  `Spec` states the mathematics (`messages`, `mixed`, `layer`); `Blocks` reads the two kernel bodies at an entry;
  `MsgsArray` and `MixArray` pass from blocks to whole arrays; `KernelRun` and `ResultValue` read the kernel's result
  buffer back to the arguments; `RefValue` reads the reference's stages.  The ideal pass rewrote nothing, so the
  kernel's idealization is its own text and `preserves` is trivial.
-/
import proofs.«163828_j28501402976579_1_alg».proof.Defs
import proofs.«163828_j28501402976579_1_alg».proof.Proof.Gen.Kernel
import proofs.«163828_j28501402976579_1_alg».proof.Proof.Gen.Kernel.Skeleton
import proofs.«163828_j28501402976579_1_alg».proof.Proof.Gen.Kernel.Launch
import proofs.«163828_j28501402976579_1_alg».proof.Proof.Gen.Kernel.Points
import proofs.«163828_j28501402976579_1_alg».proof.Proof.Gen.Kernel.Frame
import proofs.«163828_j28501402976579_1_alg».proof.Proof.Gen.KernelIdeal
import proofs.«163828_j28501402976579_1_alg».proof.Proof.Gen.KernelIdeal.Skeleton
import proofs.«163828_j28501402976579_1_alg».proof.Proof.Gen.KernelIdeal.Launch
import proofs.«163828_j28501402976579_1_alg».proof.Proof.Gen.KernelIdeal.Points
import proofs.«163828_j28501402976579_1_alg».proof.Proof.Gen.KernelIdeal.Frame
import proofs.«163828_j28501402976579_1_alg».proof.Proof.Gen.ReferenceIdeal
import proofs.«163828_j28501402976579_1_alg».proof.Proof.Gen.Pre_finite_inputs
import proofs.«163828_j28501402976579_1_alg».proof.Proof.Gen.ReferenceIdeal.Run
import proofs.«163828_j28501402976579_1_alg».proof.Proof.Gen.ReferenceIdeal.Read
import proofs.«163828_j28501402976579_1_alg».proof.Proof.ResultValue
import proofs.«163828_j28501402976579_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result at `layer` of the arguments: the kernel
    by its run read back through its two regions, the reference by its stages; the two `layer`s differ only in the
    proofs their dimension records carry. -/
theorem algebraic : Cert.algebraic_KernelIdeal_ReferenceIdeal := by
  intro m ρ m' ρ' _ hagree
  refine ⟨_, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v23_eq, Cert.ReferenceIdeal.RefValue.result_stage, h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
